-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S11008x1 : S_.BroadcastsInDim S11008x1 (![] : Fin 0 → Fin S11008x1.rank)
  reducesTo_S11008x1_S_d0_1 : S11008x1.ReducesTo [0, 1] S_

variable [Facts]

def fn_part1 {F : FTy → Type} [FloatOps F] (main_arg4 : FVec F S11008 .f32) (main_v13 : IVec S_ 1) (main_v16 : IVec S11008x1 1) : IVec S_ 1 :=
  let main_c_5 : IVec S_ 1 := constantI S_ 1 1#1
  let main_v17 : IVec S_ 1 := (fun x v => Host.reduce IntOp.andi x v reducesTo_S11008x1_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  main_v23

def fn {F : FTy → Type} [FloatOps F] (main_arg0 : FVec F S4x2048x4096 .f32) (main_arg1 : FVec F S11008x4096 .f32) (main_arg2 : FVec F S11008 .f32) (main_arg3 : FVec F S11008x1 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008x1 .f32 := Host.absf main_arg3
  let main_cst_4 : FVec F S_ .f32 := constant S_ .f32 0x7F800000#32
  let main_v15 : FVec F S11008x1 .f32 := broadcastInDim S11008x1 ![] bcast_S_S11008x1 main_cst_4
  let main_v16 : IVec S11008x1 1 := cmpf .olt main_v14 main_v15
  fn_part1 (F := F) main_arg4 main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S8192x4096 : Shape := ⟨2, ![8192, 4096]⟩
abbrev S1x11008 : Shape := ⟨2, ![1, 11008]⟩
abbrev S256x4096 : Shape := ⟨2, ![256, 4096]⟩
abbrev S256x1 : Shape := ⟨2, ![256, 1]⟩
abbrev S8192x11008 : Shape := ⟨2, ![8192, 11008]⟩
abbrev S1024x4096 : Shape := ⟨2, ![1024, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S11008x1, .f32⟩
  | .hbm, ⟨4, _⟩ => ⟨S11008, .f32⟩
  | .hbm, ⟨5, _⟩ => ⟨S8192x4096, .f32⟩
  | .hbm, ⟨6, _⟩ => ⟨S8192x4096, .bf16⟩
  | .hbm, ⟨7, _⟩ => ⟨S11008x1, .f32⟩
  | .hbm, ⟨8, _⟩ => ⟨S1x11008, .f32⟩
  | .hbm, ⟨9, _⟩ => ⟨S11008x4096, .bf16⟩
  | .hbm, ⟨10, _⟩ => ⟨S8192x11008, .f32⟩
  | .hbm, ⟨11, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x4096, .bf16⟩
  | .local _ .vmem, ⟨7, _⟩ => ⟨S256x4096, .bf16⟩
  | .local _ .vmem, ⟨8, _⟩ => ⟨S1024x4096, .bf16⟩
  | .local _ .vmem, ⟨9, _⟩ => ⟨S1024x4096, .bf16⟩
  | .local _ .vmem, ⟨10, _⟩ => ⟨S256x4096, .bf16⟩
  | .local _ .vmem, ⟨11, _⟩ => ⟨S256x4096, .bf16⟩
  | .local _ .vmem, ⟨12, _⟩ => ⟨S1x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [BitOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x4096_S8192x4096 : S4x2048x4096.ShapeCasts S8192x4096
  bitsLt_bf16_f32 : FTy.bits .bf16 < FTy.bits .f32
  shapeCasts_S11008_S11008x1 : S11008.ShapeCasts S11008x1
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  packedbf16_S256x4096_S256x4096_0_0 : (Rect.unit (s := S256x4096) ![0, 0] S256x4096.size inb_S256x4096_S256x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S11008x4096.size a
  hwx0_0 : ∀ i : grid0.Coords, EltTy.bits .f32 = 32 ∨ (Rect.block (s := S11008x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S11008x1.size a
  hwx0_1 : ∀ i : grid0.Coords, EltTy.bits .f32 = 32 ∨ (Rect.block (s := S11008x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .bf16 = 32 ∨ (Rect.block (s := S11008x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x11008.size a
  hwx1_2 : ∀ i : grid1.Coords, EltTy.bits .f32 = 32 ∨ (Rect.block (s := S1x11008) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x11008.size a
  hwx1_3 : ∀ i : grid1.Coords, EltTy.bits .f32 = 32 ∨ (Rect.block (s := S8192x11008) S1024x256.size (cc1_transform_3 i) (hinb1_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S11008x1, .f32⟩
  | .hbm, ⟨4, _⟩ => ⟨S11008, .f32⟩
  | .hbm, ⟨5, _⟩ => ⟨S11008x4096, .f32⟩
  | .hbm, ⟨6, _⟩ => ⟨S11008x4096, .f32⟩
  | .hbm, ⟨7, _⟩ => ⟨S11008x4096, .f32⟩
  | .hbm, ⟨8, _⟩ => ⟨S11008x4096, .i1⟩
  | .hbm, ⟨9, _⟩ => ⟨S11008x4096, .f32⟩
  | .hbm, ⟨10, _⟩ => ⟨S11008x4096, .f32⟩
  | .hbm, ⟨11, _⟩ => ⟨S11008x1, .f32⟩
  | .hbm, ⟨12, _⟩ => ⟨S11008x4096, .f32⟩
  | .hbm, ⟨13, _⟩ => ⟨S11008x4096, .f32⟩
  | .hbm, ⟨14, _⟩ => ⟨S4x2048x11008, .f32⟩
  | .hbm, ⟨15, _⟩ => ⟨S1x1x11008, .f32⟩
  | .hbm, ⟨16, _⟩ => ⟨S4x2048x11008, .f32⟩
  | .hbm, ⟨17, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S11008x1_0 : S11008.BroadcastsInDim S11008x1 (![0] : Fin 1 → Fin S11008x1.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.KernelRun.lean ====
/-
  The idealized program's run with its result named.

  The program is four stretches in order: the host's re-layings, the weight-preparing launch, the product launch, and
  the host's final re-laying. Every weakly fair execution runs them to the end without a fault, leaving each buffer at
  the contents the stretches compose to: the result buffer at the last stretch's contents, every argument as launched.
-/
import proofs.«168577_j10995116278314_2_alg».proof.Proof.Gen.KernelIdeal.Frame

set_option maxRecDepth 16384

noncomputable section

namespace Cert.BitLinear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the contents the four stretches
    compose to and every argument as launched. -/
theorem run_result : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.BitLinear

end
-- ==== Proof.HostIn.lean ====
/-
  The arrays the two launched computations find, in terms of the arguments.

  Before the first launch the program re-lays three arguments: the input [4, 2048, 4096] as a matrix [8192, 4096]
  (and changes its format, which is the identity on exact values), the scale [11008] as a column [11008, 1] and the
  bias [11008] as a row [1, 11008]. The weight and the threshold are passed as they are. The second launch finds the
  matrix and the row as the first one found them: the first launch writes only the prepared-weight array.
-/
import proofs.«168577_j10995116278314_2_alg».proof.Proof.Gen.KernelIdeal.Frame
import Idealize.ShloMosaic.Lib.StableHlo.Run
import Idealize.ShloMosaic.PureOps.Ideal

noncomputable section

namespace Cert.BitLinear

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The weight, as launched. -/
theorem V1_arg1 (c : Dev nD) : V1 m ρ c main_arg1 = m ((c : Thread nD τ).loc main_arg1) := by
  show StableHlo.after hostOps0 (W0 m ρ c) (Proc.devRef .tc main_arg1) = _
  after_results

/-- The threshold, as launched. -/
theorem V1_arg3 (c : Dev nD) : V1 m ρ c main_arg3 = m ((c : Thread nD τ).loc main_arg3) := by
  show StableHlo.after hostOps0 (W0 m ρ c) (Proc.devRef .tc main_arg3) = _
  after_results

/-- The scale as a column. -/
theorem V1_v2 (c : Dev nD) :
    (V1 m ρ c main_v2 : S11008x1.Idx → EReal) = shapeCast S11008x1 (m ((c : Thread nD τ).loc main_arg2)) shapeCasts_S11008_S11008x1 := by
  show StableHlo.after hostOps0 (W0 m ρ c) (Proc.devRef .tc main_v2) = _
  after_results
  rfl

/-- The input as a matrix (the change of format is the identity on exact values). -/
theorem V1_v1 (c : Dev nD) :
    (V1 m ρ c main_v1 : S8192x4096.Idx → EReal)
      = shapeCast S8192x4096 (m ((c : Thread nD τ).loc main_arg0)) shapeCasts_S4x2048x4096_S8192x4096 := by
  show StableHlo.after hostOps0 (W0 m ρ c) (Proc.devRef .tc main_v1) = _
  after_results
  rfl

/-- The bias as a row. -/
theorem V1_v3 (c : Dev nD) :
    (V1 m ρ c main_v3 : S1x11008.Idx → EReal) = shapeCast S1x11008 (m ((c : Thread nD τ).loc main_arg4)) shapeCasts_S11008_S1x11008 := by
  show StableHlo.after hostOps0 (W0 m ρ c) (Proc.devRef .tc main_v3) = _
  after_results
  rfl

/-- The second launch finds the input matrix as the first did. -/
theorem V2_v1 (c : Dev nD) : V2 m ρ c main_v1 = V1 m ρ c main_v1 := W2_of_ne m ρ c main_v1 (by decide)

/-- The second launch finds the bias row as the first did. -/
theorem V2_v3 (c : Dev nD) : V2 m ρ c main_v3 = V1 m ρ c main_v3 := W2_of_ne m ρ c main_v3 (by decide)

/-- The second launch finds, as the prepared weight, what the first launch's write-backs left. -/
theorem V2_v4 (c : Dev nD) : V2 m ρ c main_v4 = (dat0 (V1 m ρ) c).arrAt 3 cfg0.N := W2_arr m ρ c 3

/-- After the second launch the product array holds what its write-backs left, -/
theorem W3_v5 (c : Dev nD) : W3 m ρ c (Proc.devRef .tc main_v5) = (dat1 (V2 m ρ) c).arrAt 3 cfg1.N := W3_arr m ρ c 3

/-- and the result is that array re-laid as [4, 2048, 11008]. -/
theorem W4_v6 (c : Dev nD) :
    (W4 m ρ c (Proc.devRef .tc main_v6) : S4x2048x11008.Idx → EReal)
      = shapeCast S4x2048x11008 (W3 m ρ c (Proc.devRef .tc main_v5)) shapeCasts_S8192x11008_S4x2048x11008 := by
  show StableHlo.after hostOps2 (W3 m ρ c) (Proc.devRef .tc main_v6) = _
  after_results
  rfl

end Cert.BitLinear

end
-- ==== Proof.Spec.lean ====
/-
  The function both programs compute, stated over the argument arrays alone.

  A weight entry w of output row o is turned into  sign(w) · [ |w| ≥ θ(o) ] · s(o)  — its sign, kept only where its
  magnitude reaches the row's threshold θ(o), times the row's scale s(o) — and the result at (b, r, o) is the inner
  product of input row (b, r) with the ternarised, scaled weight row o, plus the bias of o:

      out(b, r, o) = Σ_k x(b, r, k) · sign(w(o, k)) · [ |w(o, k)| ≥ θ(o) ] · s(o)  +  bias(o).

  Two spellings of the entry meet here: the product  sign(w) · ind · s  with the indicator as a number 0 or 1, and the
  choice "sign(w) · s where the magnitude reaches the threshold, else 0". They agree on every extended real, with no
  finiteness asked: where the indicator is 1 it is the unit of the product, and where it is 0 the product is 0 whatever
  the other factors are (0 · x = 0 on the extended reals, the infinities included).
-/
import Idealize.ShloMosaic.PureOps.Ideal
import Idealize.ShloMosaic.PureOps.Ideal.Laws
import Idealize.ShloMosaic.Lib.ValueIdx

noncomputable section

open scoped BigOperators

namespace Cert.BitLinear

open Idealize.ShloMosaic Idealize.ShloMosaic.ValueIdx

/-- The input, [4, 2048, 4096]. -/
abbrev SX : Shape := ⟨3, ![4, 2048, 4096]⟩
/-- The weight, [11008, 4096]. -/
abbrev SW : Shape := ⟨2, ![11008, 4096]⟩
/-- A per-output-row vector (scale, bias), [11008]. -/
abbrev SV : Shape := ⟨1, ![11008]⟩
/-- The per-output-row threshold as a column, [11008, 1]. -/
abbrev ST : Shape := ⟨2, ![11008, 1]⟩
/-- The result, [4, 2048, 11008]. -/
abbrev SO : Shape := ⟨3, ![4, 2048, 11008]⟩

/-- The indicator of "the magnitude of w reaches t" as the number 0 or 1. -/
def reach (w t : EReal) : EReal := (((Ideal.cmp .oge (max w (-w)) t).toNat : ℝ) : EReal)

/-- One ternarised, scaled weight entry: sign(w) · [ |w| ≥ t ] · s. -/
def entry (w s t : EReal) : EReal := Ideal.sign w * reach w t * s

/-- The same entry as a choice: sign(w) · s where the magnitude reaches the threshold, else 0. -/
theorem entry_eq_select (w s t : EReal) :
    Scalar.select (Ideal.cmp .oge (max w (-w)) t) (Ideal.sign w * s) (0 : EReal) = entry w s t := by
  unfold entry reach Scalar.select
  rcases BitVec.eq_zero_or_eq_one (Ideal.cmp .oge (max w (-w)) t) with h | h
  · rw [h, if_neg (by decide)]
    show (0 : EReal) = Ideal.sign w * (((0 : ℕ) : ℝ) : EReal) * s
    rw [Nat.cast_zero, EReal.coe_zero, mul_zero, zero_mul]
  · rw [h, if_pos (by decide)]
    show Ideal.sign w * s = Ideal.sign w * (((1 : ℕ) : ℝ) : EReal) * s
    rw [Nat.cast_one, EReal.coe_one, mul_one]

/-- The ternarised, scaled weight at row o, column k. -/
def weightAt (W : SW.Idx → EReal) (s : SV.Idx → EReal) (θ : ST.Idx → EReal) (o : Fin 11008) (k : Fin 4096) : EReal :=
  entry (W (ix2 o k)) (s (ix1 o)) (θ (ix2 o (0 : Fin 1)))

/-- The result at (b, r, o). -/
def outAt (x : SX.Idx → EReal) (W : SW.Idx → EReal) (s : SV.Idx → EReal) (θ : ST.Idx → EReal) (β : SV.Idx → EReal)
    (b : Fin 4) (r : Fin 2048) (o : Fin 11008) : EReal :=
  (∑ k : Fin 4096, x (ix3 b r k) * weightAt W s θ o k) + β (ix1 o)

/-- The whole result array. -/
def out (x : SX.Idx → EReal) (W : SW.Idx → EReal) (s : SV.Idx → EReal) (θ : ST.Idx → EReal) (β : SV.Idx → EReal) :
    SO.Idx → EReal :=
  fun i => outAt x W s θ β (i 0) (i 1) (i 2)

theorem out_ix3 (x : SX.Idx → EReal) (W : SW.Idx → EReal) (s : SV.Idx → EReal) (θ : ST.Idx → EReal) (β : SV.Idx → EReal)
    (b : Fin 4) (r : Fin 2048) (o : Fin 11008) : out x W s θ β (ix3 b r o) = outAt x W s θ β b r o := rfl

end Cert.BitLinear

end
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.PackBody.lean ====
/-
  What the weight-preparing body stores, read at one entry.

  From a 256 × 4096 block w of the weight and the matching 256 × 1 blocks s (scale) and θ (threshold) the body stores,
  at (p, q):  sign(w(p, q)) · s(p)  where  |w(p, q)| ≥ θ(p),  and 0 elsewhere. Its sign is spelt "±1 by the order
  where the magnitude is positive, else the entry itself", which is the sign function on every extended real; the
  columns s and θ are repeated along the row. So the stored entry is the ternarised, scaled weight entry of the
  specification.
-/
import proofs.«168577_j10995116278314_2_alg».proof.Proof.Gen.KernelIdeal.Skeleton
import proofs.«168577_j10995116278314_2_alg».proof.Proof.Spec
import proofs.«168577_j10995116278314_2_alg».proof.Proof.LibColumn
import Idealize.ShloMosaic.Lib.Pipeline.Value

noncomputable section

namespace Cert.BitLinear

open Cert.KernelIdeal Cert.KernelIdeal.Gen Idealize.ShloMosaic Idealize.ShloMosaic.ValueIdx

/-- The stored block at (p, q) is the specification's entry of w(p, q), s(p), θ(p). -/
theorem pack_payload_apply (v0 : FVec Ideal S256x4096 .f32) (v1 v3 : FVec Ideal S256x1 .f32) (p : Fin 256) (q : Fin 4096) :
    k0_pay1 (F := Ideal) v0 v1 v3 (ix2 p q) = entry (v0 (ix2 p q)) (v1 (ix2 p (0 : Fin 1))) (v3 (ix2 p (0 : Fin 1))) := by
  unfold k0_pay1
  show Scalar.select (FloatOps.cmpf .oge (FloatOps.absf (v0 (ix2 p q))) (broadcastTo S256x4096 v3 broadcasts_S256x1_S256x4096 (ix2 p q)))
      (FloatOps.mulf
        (Scalar.select (FloatOps.cmpf .ogt (FloatOps.absf (v0 (ix2 p q))) (Scalar.ofBits .f32 0x00000000#32))
          (Scalar.select (FloatOps.cmpf .olt (v0 (ix2 p q)) (Scalar.ofBits .f32 0x00000000#32)) (Scalar.ofBits .f32 0xBF800000#32)
            (Scalar.ofBits .f32 0x3F800000#32)) (v0 (ix2 p q)))
        (broadcastTo S256x4096 (shapeCast S256x1 v1 shapeCasts_S256x1_S256x1) broadcasts_S256x1_S256x4096 (ix2 p q)))
      (Scalar.ofBits .f32 0x00000000#32) = _
  rw [Cert.Column.broadcastTo_a1_ab_apply, Cert.Column.broadcastTo_a1_ab_apply, shapeCast_self, Ideal.jnp_sign_eq_sign_f32,
    show (Scalar.ofBits (F := Ideal) .f32 0x00000000#32) = (0 : EReal) from Ideal.ofBits_zero_f32]
  exact entry_eq_select _ _ _

end Cert.BitLinear

end
-- ==== Proof.PackArray.lean ====
/-
  The prepared-weight array after the first launch, as one function of the arrays that launch finds.

  The launch walks 43 points; point t takes rows 256·t … 256·t + 255 of the weight W (a 256 × 4096 block) and of the
  scale and threshold columns s, θ (256 × 1 blocks), and writes back the same rows of the prepared weight. Entry (p, q)
  of the written block is the specification's entry of W(256·t + p, q), s(256·t + p), θ(256·t + p): so every block is
  the matching block of ONE array,  prepared W s θ (o, k) = entry (W(o, k)) (s(o)) (θ(o)),  and since the 43 row
  blocks cover all 11008 = 43 · 256 rows the array ends holding exactly that.
-/
import proofs.«168577_j10995116278314_2_alg».proof.Proof.Gen.KernelIdeal.Frame
import proofs.«168577_j10995116278314_2_alg».proof.Proof.PackBody
import Idealize.ShloMosaic.Lib.Pipeline.Value

noncomputable section

namespace Cert.BitLinear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The prepared weight: row o of the weight ternarised against the row's threshold and scaled by the row's scale,
    the scale and the threshold given as columns. -/
def prepared (W : S11008x4096.Idx → EReal) (s θ : S11008x1.Idx → EReal) : S11008x4096.Idx → EReal :=
  fun j => entry (W j) (s (ix2 (j 0) (0 : Fin 1))) (θ (ix2 (j 0) (0 : Fin 1)))

/-- A stored block all of whose entries are those of a function G of the block index is G. -/
theorem pack_block_eq (x0 : FVec Ideal S256x4096 .f32) (x1 x2 : FVec Ideal S256x1 .f32) (G : S256x4096.Idx → EReal)
    (h : ∀ (p : Fin 256) (q : Fin 4096), entry (x0 (ix2 p q)) (x1 (ix2 p (0 : Fin 1))) (x2 (ix2 p (0 : Fin 1))) = G (ix2 p q)) :
    k0_pay1 (F := Ideal) x0 x1 x2 = G :=
  funext fun y => by
    rw [eq_ix2 y]
    exact (pack_payload_apply x0 x1 x2 (y 0) (y 1)).trans (h (y 0) (y 1))

/-- Every window of the first launch takes, at point t, the block of rows 256·t … (block row index t, block column
    index 0): decided over the 43 points. -/
theorem pack_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the prepared weight of the arrays the launch finds. -/
theorem pack_flushed (c : Dev nD) (t : Fin cfg0.N) :
    (dat0 V c).flushed 3 t
      = ((cfg0.win 3).blk t).view.read (Elt Ideal) (prepared (V c main_arg1) (V c main_v2) (V c main_arg3)) := by
  show (cfg0.win 3).cut (grid0.coords t) ((dat0 V c).after 3 t) = _
  rw [after0_3]
  unfold out0_3
  rw [View.canon_unit_zero zero_offsets]
  simp only [View.ld_unit_zero (S := S256x4096) zero_offsets, View.ld_unit_zero (S := S256x1) zero_offsets]
  obtain ⟨e00, e01, e10, e11, e20, e21, e30, e31⟩ := pack_index t
  refine pack_block_eq _ _ _ _ fun p q => ?_
  have h0 : ((cfg0.win 0).blk t).view.emb (ix2 p q) = ((cfg0.win 3).blk t).view.emb (ix2 p q) := by
    funext a; apply Fin.ext
    match a with
    | ⟨0, _⟩ => show win0_0.index t (0 : Fin 2) * 256 + 1 * p.val = win0_3.index t (0 : Fin 2) * 256 + 1 * p.val; omega
    | ⟨1, _⟩ => show win0_0.index t (1 : Fin 2) * 4096 + 1 * q.val = win0_3.index t (1 : Fin 2) * 4096 + 1 * q.val; omega
  have h1 : ((cfg0.win 1).blk t).view.emb (ix2 p (0 : Fin 1))
      = ix2 ((((cfg0.win 3).blk t).view.emb (ix2 p q)) 0) (0 : Fin 1) := by
    funext a; apply Fin.ext
    match a with
    | ⟨0, _⟩ => show win0_1.index t (0 : Fin 2) * 256 + 1 * p.val = win0_3.index t (0 : Fin 2) * 256 + 1 * p.val; omega
    | ⟨1, _⟩ => show win0_1.index t (1 : Fin 2) * 1 + 1 * 0 = 0; omega
  have h2 : ((cfg0.win 2).blk t).view.emb (ix2 p (0 : Fin 1))
      = ix2 ((((cfg0.win 3).blk t).view.emb (ix2 p q)) 0) (0 : Fin 1) := by
    funext a; apply Fin.ext
    match a with
    | ⟨0, _⟩ => show win0_2.index t (0 : Fin 2) * 256 + 1 * p.val = win0_3.index t (0 : Fin 2) * 256 + 1 * p.val; omega
    | ⟨1, _⟩ => show win0_2.index t (1 : Fin 2) * 1 + 1 * 0 = 0; omega
  show entry (V c main_arg1 (((cfg0.win 0).blk t).view.emb (ix2 p q))) (V c main_v2 (((cfg0.win 1).blk t).view.emb (ix2 p (0 : Fin 1))))
      (V c main_arg3 (((cfg0.win 2).blk t).view.emb (ix2 p (0 : Fin 1))))
    = entry (V c main_arg1 (((cfg0.win 3).blk t).view.emb (ix2 p q)))
      (V c main_v2 (ix2 ((((cfg0.win 3).blk t).view.emb (ix2 p q)) 0) (0 : Fin 1)))
      (V c main_arg3 (ix2 ((((cfg0.win 3).blk t).view.emb (ix2 p q)) 0) (0 : Fin 1)))
  rw [h0, h1, h2]
  rfl

/-- An index of the prepared-weight array lies in point t's block iff each coordinate lies in the block's range. -/
theorem pack_mem_blk (t : Fin cfg0.N) (i : S11008x4096.Idx) :
    i ∈ ((cfg0.win 3).blk t).view.set
      ↔ ∀ a : Fin 2, win0_3.index t a * S256x4096.size a ≤ (i a).val ∧ (i a).val < win0_3.index t a * S256x4096.size a + S256x4096.size a := by
  show i ∈ ((View.whole main_v4).slice (win0_3.rect t)).set ↔ _
  rw [View.set_slice_whole, Rect.mem_set_unit]
  exact Iff.rfl

/-- The 43 row blocks cover the array: row o lies in the block of point o / 256. -/
theorem pack_cover (i : S11008x4096.Idx) :
    ∃ t : Fin cfg0.N, (cfg0.win 3).flush t = true ∧ i ∈ ((cfg0.win 3).blk t).view.set := by
  have hi0 : (i 0).val < 11008 := (i 0).isLt
  have hi1 : (i 1).val < 4096 := (i 1).isLt
  have hN : cfg0.N = 43 := N_0
  let t : Fin cfg0.N := ⟨(i 0).val / 256, by rw [hN]; omega⟩
  obtain ⟨-, -, -, -, -, -, e30, e31⟩ := pack_index t
  have ht : t.val = (i 0).val / 256 := rfl
  refine ⟨t, flush0_3 t, ?_⟩
  rw [pack_mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- After the first launch the prepared-weight array holds `prepared` of the arrays the launch finds. -/
theorem pack_final (c : Dev nD) :
    (dat0 V c).arrAt 3 cfg0.N = prepared (V c main_arg1) (V c main_v2) (V c main_arg3) :=
  (dat0 V c).arrAt_eq_of_cover 3 _ (fun t _ => pack_flushed V c t) pack_cover

end Cert.BitLinear

end
-- ==== Proof.MatmulBody.lean ====
/-
  What the matrix-product body stores, read at one entry.

  From a 1024 × 4096 block a of the (reshaped) input, a 256 × 4096 block g of the prepared weight and a 1 × 256 block
  β of the bias the body stores, at (p, q), the inner product of row p of a with row q of g — both operands are
  contracted along their second axis — plus β(q): the product into a zero accumulator is the plain finite sum over the
  contracted coordinate, and the bias row is repeated down the rows.
-/
import proofs.«168577_j10995116278314_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.BitLinear

open Cert.KernelIdeal Cert.KernelIdeal.Gen Idealize.ShloMosaic Idealize.ShloMosaic.ValueIdx

/-- The product's dimension record: rows of the left operand against rows of the right, both contracted along axis 1. -/
abbrev mmDims := dot_S1024x4096_S256x4096_S1024x256_1_1_0_0_n_n

theorem mm_lhs_0 (i : S1024x256.Idx) (q : mmDims.contr.Idx) : (mmDims.lhsIdx i q 0).val = (i 0).val := by
  unfold DotDims.lhsIdx
  rw [dif_neg (show ¬(0 : Fin S1024x4096.rank) ∈ mmDims.lhsBatch by decide),
    dif_pos (show (0 : Fin S1024x4096.rank) ∈ mmDims.lhsNonContracting by decide)]
  rfl
theorem mm_lhs_1 (i : S1024x256.Idx) (q : mmDims.contr.Idx) : (mmDims.lhsIdx i q 1).val = (q ⟨0, by decide⟩).val :=
  mmDims.lhsIdx_val_of_single rfl i q
theorem mm_rhs_0 (i : S1024x256.Idx) (q : mmDims.contr.Idx) : (mmDims.rhsIdx i q 0).val = (i 1).val := by
  unfold DotDims.rhsIdx
  rw [dif_neg (show ¬(0 : Fin S256x4096.rank) ∈ mmDims.rhsBatch by decide),
    dif_pos (show (0 : Fin S256x4096.rank) ∈ mmDims.rhsNonContracting by decide)]
  rfl
theorem mm_rhs_1 (i : S1024x256.Idx) (q : mmDims.contr.Idx) : (mmDims.rhsIdx i q 1).val = (q ⟨0, by decide⟩).val :=
  mmDims.rhsIdx_val_of_single rfl i q

/-- The product into a zero accumulator at (p, q): the sum over k of a(p, k) · g(q, k). -/
theorem mm_apply (a : FVec Ideal S1024x4096 .bf16) (g : FVec Ideal S256x4096 .bf16) (p : Fin 1024) (q : Fin 256) :
    FloatOps.matmul mmDims none a g (constant S1024x256 .f32 0x00000000#32) (ix2 p q)
      = ∑ k : Fin 4096, a (ix2 p k) * g (ix2 q k) := by
  rw [Ideal.matmul_constant_zero_apply, ← Equiv.sum_comp (contrEquiv1 mmDims 4096 rfl rfl).symm]
  refine Finset.sum_congr rfl fun k _ => ?_
  have hk := contrEquiv1_symm_val mmDims 4096 rfl rfl k
  have el : mmDims.lhsIdx (ix2 p q) ((contrEquiv1 mmDims 4096 rfl rfl).symm k) = ix2 p k := funext fun ax => Fin.ext (by
    match ax with
    | ⟨0, _⟩ => exact mm_lhs_0 _ _
    | ⟨1, _⟩ => exact (mm_lhs_1 _ _).trans hk)
  have er : mmDims.rhsIdx (ix2 p q) ((contrEquiv1 mmDims 4096 rfl rfl).symm k) = ix2 q k := funext fun ax => Fin.ext (by
    match ax with
    | ⟨0, _⟩ => exact mm_rhs_0 _ _
    | ⟨1, _⟩ => exact (mm_rhs_1 _ _).trans hk)
  rw [el, er]

/-- The stored block at (p, q): row p of a against row q of g, plus β(q). -/
theorem matmul_payload_apply (v0 : FVec Ideal S1024x4096 .bf16) (v2 : FVec Ideal S256x4096 .bf16) (v5 : FVec Ideal S1x256 .f32)
    (p : Fin 1024) (q : Fin 256) :
    k1_pay1 (F := Ideal) v0 v2 v5 (ix2 p q) = (∑ k : Fin 4096, v0 (ix2 p k) * v2 (ix2 q k)) + v5 (ix2 (0 : Fin 1) q) := by
  unfold k1_pay1
  show FloatOps.matmul mmDims none (shapeCast S1024x4096 v0 shapeCasts_S1024x4096_S1024x4096) (shapeCast S256x4096 v2 shapeCasts_S256x4096_S256x4096)
        (constant S1024x256 .f32 0x00000000#32) (ix2 p q)
      + broadcastTo S1024x256 (shapeCast S1x256 v5 shapeCasts_S1x256_S1x256) broadcasts_S1x256_S1024x256 (ix2 p q) = _
  rw [shapeCast_self, shapeCast_self, shapeCast_self, broadcastTo_1b_ab_apply, mm_apply]

end Cert.BitLinear

end
-- ==== Proof.MatmulArray.lean ====
/-
  The product array after the second launch, as one function of the arrays that launch finds.

  The launch walks 8 × 43 points in row-major order; point t = 43·i + j takes rows 1024·i … of the input matrix A
  (a 1024 × 4096 block), rows 256·j … of the prepared weight P (a 256 × 4096 block) and columns 256·j … of the bias
  row β (a 1 × 256 block), and writes back block (i, j) of the product array. Entry (p, q) of the written block is the
  inner product of row 1024·i + p of A with row 256·j + q of P, plus β(256·j + q): so every block is the matching
  block of ONE array,  product A P β (r, o) = Σ_k A(r, k) · P(o, k) + β(o),  and the 8 × 43 blocks cover all
  8192 × 11008 entries.
-/
import proofs.«168577_j10995116278314_2_alg».proof.Proof.Gen.KernelIdeal.Frame
import proofs.«168577_j10995116278314_2_alg».proof.Proof.MatmulBody
import Idealize.ShloMosaic.Lib.Pipeline.Value

noncomputable section

open scoped BigOperators

namespace Cert.BitLinear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets' : (![0, 0] : Fin 2 → Nat) = fun _ => 0 := funext fun a => by fin_cases a <;> rfl

/-- Rows of A against rows of P, plus the bias row. -/
def product (A : S8192x4096.Idx → EReal) (P : S11008x4096.Idx → EReal) (β : S1x11008.Idx → EReal) : S8192x11008.Idx → EReal :=
  fun j => (∑ k : Fin 4096, A (ix2 (j 0) k) * P (ix2 (j 1) k)) + β (ix2 (0 : Fin 1) (j 1))

/-- A stored block all of whose entries are those of a function G of the block index is G. -/
theorem mm_block_eq (x0 : FVec Ideal S1024x4096 .bf16) (x1 : FVec Ideal S256x4096 .bf16) (x2 : FVec Ideal S1x256 .f32)
    (G : S1024x256.Idx → EReal)
    (h : ∀ (p : Fin 1024) (q : Fin 256), (∑ k : Fin 4096, x0 (ix2 p k) * x1 (ix2 q k)) + x2 (ix2 (0 : Fin 1) q) = G (ix2 p q)) :
    k1_pay1 (F := Ideal) x0 x1 x2 = G :=
  funext fun y => by
    rw [eq_ix2 y]
    exact (matmul_payload_apply x0 x1 x2 (y 0) (y 1)).trans (h (y 0) (y 1))

/-- The block indices at point t = 43·i + j: the input's row block i, the prepared weight's row block j, the bias's
    column block j, the result's block (i, j): decided over the 344 points. -/
theorem mm_index : ∀ t : Fin cfg1.N,
    win1_0.index t (0 : Fin 2) = t.val / 43 ∧ win1_0.index t (1 : Fin 2) = 0
    ∧ win1_1.index t (0 : Fin 2) = t.val % 43 ∧ win1_1.index t (1 : Fin 2) = 0
    ∧ win1_2.index t (0 : Fin 2) = 0 ∧ win1_2.index t (1 : Fin 2) = t.val % 43
    ∧ win1_3.index t (0 : Fin 2) = t.val / 43 ∧ win1_3.index t (1 : Fin 2) = t.val % 43 :=
  (by decide +kernel : ∀ t : Fin grid1.N, _)

/-- What point t writes back is block t of the product of the arrays the launch finds. -/
theorem mm_flushed (c : Dev nD) (t : Fin cfg1.N) :
    (dat1 V c).flushed 3 t
      = ((cfg1.win 3).blk t).view.read (Elt Ideal) (product (V c main_v1) (V c main_v4) (V c main_v3)) := by
  show (cfg1.win 3).cut (grid1.coords t) ((dat1 V c).after 3 t) = _
  rw [after1_3]
  unfold out1_3
  rw [View.canon_unit_zero zero_offsets']
  simp only [View.ld_unit_zero (S := S1024x4096) zero_offsets', View.ld_unit_zero (S := S256x4096) zero_offsets',
    View.ld_unit_zero (S := S1x256) zero_offsets']
  obtain ⟨e00, e01, e10, e11, e20, e21, e30, e31⟩ := mm_index t
  refine mm_block_eq _ _ _ _ fun p q => ?_
  have r0 : ∀ k : Fin 4096, iblk1 V c 0 t (ix2 p k)
      = (V c main_v1 : S8192x4096.Idx → EReal) (ix2 ((((cfg1.win 3).blk t).view.emb (ix2 p q)) 0) k) := fun k => by
    show V c main_v1 (((cfg1.win 0).blk t).view.emb (ix2 p k)) = _
    refine congrArg (V c main_v1) ?_
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 4096 + 1 * k.val = k.val; omega
  have r1 : ∀ k : Fin 4096, iblk1 V c 1 t (ix2 q k)
      = (V c main_v4 : S11008x4096.Idx → EReal) (ix2 ((((cfg1.win 3).blk t).view.emb (ix2 p q)) 1) k) := fun k => by
    show V c main_v4 (((cfg1.win 1).blk t).view.emb (ix2 q k)) = _
    refine congrArg (V c main_v4) ?_
    funext a; apply Fin.ext
    match a with
    | ⟨0, _⟩ => show win1_1.index t (0 : Fin 2) * 256 + 1 * q.val = win1_3.index t (1 : Fin 2) * 256 + 1 * q.val; omega
    | ⟨1, _⟩ => show win1_1.index t (1 : Fin 2) * 4096 + 1 * k.val = k.val; omega
  have r2 : iblk1 V c 2 t (ix2 (0 : Fin 1) q)
      = (V c main_v3 : S1x11008.Idx → EReal) (ix2 (0 : Fin 1) ((((cfg1.win 3).blk t).view.emb (ix2 p q)) 1)) := by
    show V c main_v3 (((cfg1.win 2).blk t).view.emb (ix2 (0 : Fin 1) q)) = _
    refine congrArg (V c main_v3) ?_
    funext a; apply Fin.ext
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega
  simp only [r0, r1, r2]
  rfl

/-- An index of the product array lies in point t's block iff each coordinate lies in the block's range. -/
theorem mm_mem_blk (t : Fin cfg1.N) (i : S8192x11008.Idx) :
    i ∈ ((cfg1.win 3).blk t).view.set
      ↔ ∀ a : Fin 2, win1_3.index t a * S1024x256.size a ≤ (i a).val ∧ (i a).val < win1_3.index t a * S1024x256.size a + S1024x256.size a := by
  show i ∈ ((View.whole main_v5).slice (win1_3.rect t)).set ↔ _
  rw [View.set_slice_whole, Rect.mem_set_unit]
  exact Iff.rfl

/-- The 8 × 43 blocks cover the array: entry (r, o) lies in the block of point 43·(r / 1024) + o / 256. -/
theorem mm_cover (i : S8192x11008.Idx) :
    ∃ t : Fin cfg1.N, (cfg1.win 3).flush t = true ∧ i ∈ ((cfg1.win 3).blk t).view.set := by
  have hi0 : (i 0).val < 8192 := (i 0).isLt
  have hi1 : (i 1).val < 11008 := (i 1).isLt
  have hN : cfg1.N = 344 := N_1
  let t : Fin cfg1.N := ⟨(i 0).val / 1024 * 43 + (i 1).val / 256, by rw [hN]; omega⟩
  obtain ⟨-, -, -, -, -, -, e30, e31⟩ := mm_index t
  have ht : t.val = (i 0).val / 1024 * 43 + (i 1).val / 256 := rfl
  refine ⟨t, flush1_3 t, ?_⟩
  rw [mm_mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 256 ≤ (i 1).val ∧ (i 1).val < win1_3.index t (1 : Fin 2) * 256 + 256; omega

/-- After the second launch the product array holds `product` of the arrays the launch finds. -/
theorem mm_final (c : Dev nD) :
    (dat1 V c).arrAt 3 cfg1.N = product (V c main_v1) (V c main_v4) (V c main_v3) :=
  (dat1 V c).arrAt_eq_of_cover 3 _ (fun t _ => mm_flushed V c t) mm_cover

end Cert.BitLinear

end
-- ==== Proof.KernelValue.lean ====
/-
  The idealized program's result is the specification's function of the arguments.

  Put together: the result is the product array re-laid as [4, 2048, 11008]; the product array is rows of the input
  matrix against rows of the prepared weight plus the bias row; the input matrix is the input re-laid as
  [8192, 4096] (row 2048·b + r is input row (b, r)); the prepared weight is the weight ternarised and scaled by the
  scale column, which is the scale vector; the bias row is the bias vector. Entry (b, r, o) of the result sits at
  row-major position (2048·b + r)·11008 + o of both layouts, so it is the product array's entry (2048·b + r, o):
  Σ_k x(b, r, k) · weight(o, k) + bias(o).
-/
import proofs.«168577_j10995116278314_2_alg».proof.Proof.HostIn
import proofs.«168577_j10995116278314_2_alg».proof.Proof.PackArray
import proofs.«168577_j10995116278314_2_alg».proof.Proof.MatmulArray
import proofs.«168577_j10995116278314_2_alg».proof.Proof.Spec
import proofs.«168577_j10995116278314_2_alg».proof.Proof.LibColumn
import Idealize.ShloMosaic.Lib.ValueLayout

noncomputable section

open scoped BigOperators

namespace Cert.BitLinear

open Cert.KernelIdeal Cert.KernelIdeal.Gen Idealize.ShloMosaic Idealize.ShloMosaic.TcCoe Idealize.SL.Sem
open Idealize.ShloMosaic.ValueIdx

/-- With the scale column the scale vector re-laid, the prepared weight at (o, k) is the specification's. -/
theorem prepared_column (W : S11008x4096.Idx → EReal) (sv : S11008.Idx → EReal) (θ : S11008x1.Idx → EReal)
    (o : Fin 11008) (k : Fin 4096) :
    prepared W (shapeCast S11008x1 sv shapeCasts_S11008_S11008x1) θ (ix2 o k) = weightAt W sv θ o k := by
  unfold prepared weightAt
  show entry (W (ix2 o k)) (shapeCast S11008x1 sv shapeCasts_S11008_S11008x1 (ix2 o (0 : Fin 1))) (θ (ix2 o (0 : Fin 1))) = _
  rw [Cert.Column.shapeCast_a_a1_apply]

/-- The re-laid product of the re-laid input with the prepared weight, plus the re-laid bias, is the specification's
    result. -/
theorem relaid_eq (x : S4x2048x4096.Idx → EReal) (W : S11008x4096.Idx → EReal) (sv : S11008.Idx → EReal)
    (θ : S11008x1.Idx → EReal) (β : S11008.Idx → EReal) :
    shapeCast S4x2048x11008
        (product (shapeCast S8192x4096 x shapeCasts_S4x2048x4096_S8192x4096)
          (prepared W (shapeCast S11008x1 sv shapeCasts_S11008_S11008x1) θ)
          (shapeCast S1x11008 β shapeCasts_S11008_S1x11008))
        shapeCasts_S8192x11008_S4x2048x11008
      = out x W sv θ β := by
  funext i
  obtain ⟨b, r, o, rfl⟩ : ∃ (b : Fin 4) (r : Fin 2048) (o : Fin 11008), i = ix3 b r o := ⟨i 0, i 1, i 2, eq_ix3 i⟩
  rw [out_ix3]
  have hrow : b.val * 2048 + r.val < 8192 := by have := b.isLt; have := r.isLt; omega
  refine (shapeCast_apply _ shapeCasts_S8192x11008_S4x2048x11008 (ix3 b r o) (ix2 (⟨b.val * 2048 + r.val, hrow⟩ : Fin 8192) o) ?_).trans ?_
  · rw [Shape.rowMajor_val_two, Shape.rowMajor_val_three]
    rfl
  · unfold product outAt
    show (∑ k : Fin 4096, shapeCast S8192x4096 x shapeCasts_S4x2048x4096_S8192x4096 (ix2 (⟨b.val * 2048 + r.val, hrow⟩ : Fin 8192) k)
          * prepared W (shapeCast S11008x1 sv shapeCasts_S11008_S11008x1) θ (ix2 o k))
        + shapeCast S1x11008 β shapeCasts_S11008_S1x11008 (ix2 (0 : Fin 1) o) = _
    rw [shapeCast_a_1a_apply]
    refine congrArg (· + β (ix1 o)) (Finset.sum_congr rfl fun k _ => ?_)
    rw [prepared_column]
    refine congrArg (· * weightAt W sv θ o k) ?_
    refine shapeCast_apply x shapeCasts_S4x2048x4096_S8192x4096 _ (ix3 b r k) ?_
    rw [Shape.rowMajor_val_two, Shape.rowMajor_val_three]
    rfl

variable (m : (ℓ : Loc nD τ sig) → Buf (Elt Ideal) ℓ) (ρ : Dev nD → PrngReg)

/-- The result buffer's final contents are the specification's function of the launch contents of the arguments. -/
theorem kernel_value (c : Dev nD) :
    (W4 m ρ c (Proc.devRef .tc main_v6) : S4x2048x11008.Idx → EReal)
      = out (m ((c : Thread nD τ).loc main_arg0)) (m ((c : Thread nD τ).loc main_arg1)) (m ((c : Thread nD τ).loc main_arg2))
          (m ((c : Thread nD τ).loc main_arg3)) (m ((c : Thread nD τ).loc main_arg4)) := by
  rw [W4_v6 m ρ c, W3_v5 m ρ c, mm_final (V2 m ρ) c, V2_v1 m ρ c, V2_v3 m ρ c, V2_v4 m ρ c, pack_final (V1 m ρ) c,
    V1_v1 m ρ c, V1_v2 m ρ c, V1_v3 m ρ c, V1_arg1 m ρ c, V1_arg3 m ρ c]
  exact relaid_eq _ _ _ _ _

end Cert.BitLinear

end
-- ==== Proof.RefValue.lean ====
/-
  The reference computes the specification's function.

  Read one operation at a time, the reference's result at (b, r, o) is the sum over k of x(b, r, k) times the prepared
  weight at (o, k), plus the bias at o; its prepared weight at (o, k) is  sign(w) · ind · s  with the indicator of
  |w(o, k)| ≥ θ(o) converted to 0 or 1, the threshold column repeated along the row and the scale vector first made a
  column and then repeated along the row: the specification's entry, term for term.
-/
import proofs.«168577_j10995116278314_2_alg».proof.Proof.Gen.ReferenceIdeal.Read
import proofs.«168577_j10995116278314_2_alg».proof.Proof.Spec

noncomputable section

open scoped BigOperators

namespace Cert.BitLinear

open Cert.ReferenceIdeal Cert.ReferenceIdeal.Read Idealize.ShloMosaic Idealize.ShloMosaic.ValueIdx

/-- The reference's prepared weight at (o, k) is the specification's. -/
theorem reference_weight (x1 : SW.Idx → EReal) (x2 : SV.Idx → EReal) (x3 : ST.Idx → EReal) (o : Fin 11008) (k : Fin 4096) :
    val_main_v8 (F := Ideal) x1 x2 x3 (ix2 o k) = weightAt x1 x2 x3 o k := by
  rw [val_main_v8_apply, val_main_v5_apply, val_main_v0_apply, val_main_v4_apply, val_main_v3_apply, val_main_v1_apply,
    val_main_v2_apply, val_main_v7_apply, val_main_v6_apply]
  have e2 : idx_main_v2 (ix2 o k) = ix2 o (0 : Fin 1) := funext fun a => Fin.ext (by
    match a with
    | ⟨0, _⟩ => rfl
    | ⟨1, _⟩ => rfl)
  have e6 : idx_main_v6 (idx_main_v7 (ix2 o k)) = ix1 o := funext fun a => Fin.ext (by
    match a with
    | ⟨0, _⟩ => rfl)
  rw [e2, e6]
  rfl

/-- The reference's result array is the specification's. -/
theorem reference_eq (x0 : SX.Idx → EReal) (x1 : SW.Idx → EReal) (x2 : SV.Idx → EReal) (x3 : ST.Idx → EReal) (x4 : SV.Idx → EReal) :
    val_main_v12 (F := Ideal) x0 x1 x2 x3 x4 = out x0 x1 x2 x3 x4 := by
  funext i
  obtain ⟨b, r, o, rfl⟩ : ∃ (b : Fin 4) (r : Fin 2048) (o : Fin 11008), i = ix3 b r o := ⟨i 0, i 1, i 2, eq_ix3 i⟩
  rw [out_ix3, val_main_v12_apply, val_main_v9_apply, val_main_v11_apply, val_main_v10_apply]
  unfold outAt
  have e4 : idx_main_v10 (idx_main_v11 (ix3 b r o)) = ix1 o := funext fun a => Fin.ext (by
    match a with
    | ⟨0, _⟩ => rfl)
  have el : ∀ k : Fin 4096, lidx_main_v9 (ix3 b r o) k = ix3 b r k := fun k => funext fun a => Fin.ext (by
    match a with
    | ⟨0, _⟩ => rfl
    | ⟨1, _⟩ => rfl
    | ⟨2, _⟩ => rfl)
  have er : ∀ k : Fin 4096, ridx_main_v9 (ix3 b r o) k = ix2 o k := fun k => funext fun a => Fin.ext (by
    match a with
    | ⟨0, _⟩ => rfl
    | ⟨1, _⟩ => rfl)
  rw [e4]
  show (∑ k : Fin 4096, x0 (lidx_main_v9 (ix3 b r o) k) * val_main_v8 (F := Ideal) x1 x2 x3 (ridx_main_v9 (ix3 b r o) k)) + x4 (ix1 o) = _
  exact congrArg (· + x4 (ix1 o)) (Finset.sum_congr rfl fun k _ => by rw [el k, er k, reference_weight])

end Cert.BitLinear

end
-- ==== Proof.lean ====
/-
  A dense layer with ternarised weights, in two launched computations, against its one-line reference.

  The program first prepares the weight once — each entry w of output row o becomes  sign(w) · s(o)  where |w| reaches
  the row's threshold θ(o) and 0 elsewhere — and then multiplies: the input, re-laid as 8192 rows, against the rows of
  the prepared weight, plus the bias; the result is re-laid as [4, 2048, 11008]. The reference writes the prepared
  weight as the product  sign(w) · [ |w| ≥ θ(o) ] · s(o)  and contracts the input with it directly. On the exact
  values both are

      out(b, r, o) = Σ_k x(b, r, k) · sign(w(o, k)) · [ |w(o, k)| ≥ θ(o) ] · s(o)  +  bias(o),

  with no appeal to finiteness: the two spellings of an entry agree on every extended real (a factor 0 makes the
  product 0, a factor 1 leaves it), the kernel's sign — ±1 by the order where the magnitude is positive, else the entry
  itself — is the sign function everywhere, changes of number format are the identity, a blocked product into a zero
  accumulator is the plain sum, and re-laying an array only renames its entries.
-/
import proofs.«168577_j10995116278314_2_alg».proof.Defs
import proofs.«168577_j10995116278314_2_alg».proof.Proof.Gen.Kernel
import proofs.«168577_j10995116278314_2_alg».proof.Proof.Gen.Kernel.Skeleton
import proofs.«168577_j10995116278314_2_alg».proof.Proof.Gen.Kernel.Launch
import proofs.«168577_j10995116278314_2_alg».proof.Proof.Gen.Kernel.Points
import proofs.«168577_j10995116278314_2_alg».proof.Proof.Gen.Kernel.Frame
import proofs.«168577_j10995116278314_2_alg».proof.Proof.Gen.KernelIdeal
import proofs.«168577_j10995116278314_2_alg».proof.Proof.Gen.KernelIdeal.Skeleton
import proofs.«168577_j10995116278314_2_alg».proof.Proof.Gen.KernelIdeal.Launch
import proofs.«168577_j10995116278314_2_alg».proof.Proof.Gen.KernelIdeal.Points
import proofs.«168577_j10995116278314_2_alg».proof.Proof.Gen.KernelIdeal.Frame
import proofs.«168577_j10995116278314_2_alg».proof.Proof.Gen.ReferenceIdeal
import proofs.«168577_j10995116278314_2_alg».proof.Proof.Gen.ReferenceIdeal.Run
import proofs.«168577_j10995116278314_2_alg».proof.Proof.Gen.ReferenceIdeal.Read
import proofs.«168577_j10995116278314_2_alg».proof.Proof.Gen.Pre_finite_inputs
import proofs.«168577_j10995116278314_2_alg».proof.Proof.KernelRun
import proofs.«168577_j10995116278314_2_alg».proof.Proof.KernelValue
import proofs.«168577_j10995116278314_2_alg».proof.Proof.RefValue
import Idealize.ShloMosaic.Adequacy
import Idealize.ShloMosaic.Init

noncomputable section

namespace Cert.Proof

open Idealize.ShloMosaic Idealize.ShloMosaic.TcCoe Idealize.SL.Sem

/-- The printed program runs to the end with its arguments unchanged. -/
theorem frame_kernel : Cert.frame_Kernel := fun m ρ _ => Cert.Kernel.Gen.frame m ρ

/-- So does its reading on the exact values. -/
theorem frame_kernel_ideal : Cert.frame_KernelIdeal := fun m ρ _ => Cert.KernelIdeal.Gen.frame m ρ

/-- The reference runs to the end with its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the exact-value reading: "1.0 carrying the sign bit of w" is -1 below zero and 1 otherwise. -/
theorem preserves : Cert.preserves_Kernel_KernelIdeal :=
  IdealRules.sign_bit.statement Cert.KernelIdeal.S256x4096 .f32

/-- On the exact values, from memories that agree on the arguments, both programs end with the result buffer at the
    specification's function of the arguments. -/
theorem algebraic : Cert.algebraic_KernelIdeal_ReferenceIdeal := by
  intro m ρ m' ρ' _ hagree
  refine ⟨fun c => Cert.BitLinear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.BitLinear.kernel_value m ρ c), (h c).2⟩)
      (Cert.BitLinear.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.BitLinear.reference_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
